-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x64x2048 : Shape := ⟨3, ![16, 64, 2048]⟩
abbrev S16x2048x2048 : Shape := ⟨3, ![16, 2048, 2048]⟩
abbrev S1x512x64 : Shape := ⟨3, ![1, 512, 64]⟩
abbrev S1x64x2048 : Shape := ⟨3, ![1, 64, 2048]⟩
abbrev S1x2048x64 : Shape := ⟨3, ![1, 2048, 64]⟩
abbrev S1x512x2048 : Shape := ⟨3, ![1, 512, 2048]⟩
abbrev S512x64 : Shape := ⟨2, ![512, 64]⟩
abbrev S64x2048 : Shape := ⟨2, ![64, 2048]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x64x2048, .f32⟩
  | .hbm, ⟨4, _⟩ => ⟨S16x2048x64, .f32⟩
  | .hbm, ⟨5, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x64x2048, .f32⟩
  | .local _ .vmem, ⟨3, _⟩ => ⟨S1x64x2048, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S16x2048x64_S16x64x2048_0_2_1 : S16x2048x64.Transposes [0, 2, 1] S16x64x2048
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S16x64x2048.size a
  hwx0_1 : ∀ i : grid0.Coords, EltTy.bits .f32 = 32 ∨ (Rect.block (s := S16x64x2048) S1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Attention.lean ====
/-
  Scaled dot-product attention over the extended reals, as ONE function of the three argument arrays.

  For a batch `b`, a query row `r` and a key row `j` the score is `(∑ d, q[b,r,d] · k[b,j,d]) · c` with `c = 1/8` (the
  reciprocal of √64, a dyadic, so the f32 word denotes it exactly); a row of scores goes through the stable softmax
  `exp (s j − max s) / ∑ j', exp (s j' − max s)`, the maximum taken from −∞; the context is `∑ j, attn[b,r,j] · v[b,j,d]`.

  One law is needed beyond re-association: a nonnegative finite factor moves out of a finite sum of extended reals,
  `∑ d, (x d · c) · y d = (∑ d, x d · y d) · c`. It holds at the infinities too (the extended reals distribute over a
  nonnegative finite factor), so no finiteness of the entries is used.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The f32 word `0x3E000000` denotes the real `1/8`. -/
theorem scale_eq : Ideal.ofBits .f32 0x3E000000#32 = ((1 / 8 : ℝ) : EReal) := by
  simp [Ideal.ofBits, Ideal.ieee, -EReal.coe_mul]; norm_num

theorem scale_nonneg : (0 : EReal) ≤ Ideal.ofBits .f32 0x3E000000#32 := by
  rw [scale_eq]; exact EReal.coe_nonneg.mpr (by norm_num)

theorem scale_ne_top : Ideal.ofBits .f32 0x3E000000#32 ≠ (⊤ : EReal) := by
  rw [scale_eq]; exact EReal.coe_ne_top _

/-- A nonnegative finite factor moves out of a finite sum of extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The scale applied to one factor of every product of a contraction is the scale applied to the contraction. -/
theorem sum_scaled_mul {n : Nat} (x y : Fin n → EReal) :
    ∑ d : Fin n, (x d * Ideal.ofBits .f32 0x3E000000#32) * y d
      = (∑ d : Fin n, x d * y d) * Ideal.ofBits .f32 0x3E000000#32 := by
  rw [sum_mul_of_nonneg_of_ne_top _ _ scale_nonneg scale_ne_top]
  exact Finset.sum_congr rfl fun d _ => mul_right_comm _ _ _

/-- The maximum of a row, from −∞ (the f32 word `0xFF800000`). -/
def rowMax {n : Nat} (s : Fin n → EReal) : EReal :=
  (Finset.univ : Finset (Fin n)).fold max (Ideal.ofBits .f32 0xFF800000#32) s

/-- Taking the maximum with −∞ once more changes nothing. -/
theorem max_negInf_rowMax {n : Nat} (s : Fin n → EReal) : max (Ideal.ofBits .f32 0xFF800000#32) (rowMax s) = rowMax s :=
  max_eq_right ((Finset.le_fold_max _).mpr (Or.inl le_rfl))

/-- The exponentials of a row, shifted by its maximum. -/
def rowExp {n : Nat} (s : Fin n → EReal) (j : Fin n) : EReal := Ideal.exp (s j - rowMax s)

/-- The stable softmax of one row of scores. -/
def softmaxRow {n : Nat} (s : Fin n → EReal) (j : Fin n) : EReal :=
  Ideal.div (rowExp s j) (∑ j' : Fin n, rowExp s j')

/-- The argument arrays' shape, [16, 2048, 64], and the attention matrix's, [16, 2048, 2048]. -/
abbrev Sqkv : Shape := ⟨3, ![16, 2048, 64]⟩
abbrev Sattn : Shape := ⟨3, ![16, 2048, 2048]⟩

/-- The scaled score of query row `r` against key row `j` in batch `b`. -/
def score (q k : Sqkv.Idx → EReal) (b : Fin 16) (r j : Fin 2048) : EReal :=
  (∑ d : Fin 64, q (ix3 b r d) * k (ix3 b j d)) * Ideal.ofBits .f32 0x3E000000#32

/-- The attention weight of key row `j` for query row `r` in batch `b`. -/
def attnAt (q k : Sqkv.Idx → EReal) (b : Fin 16) (r j : Fin 2048) : EReal :=
  softmaxRow (fun j' => score q k b r j') j

/-- The context of query row `r` in batch `b` at feature `d`. -/
def ctxAt (q k v : Sqkv.Idx → EReal) (b : Fin 16) (r : Fin 2048) (d : Fin 64) : EReal :=
  ∑ j : Fin 2048, attnAt q k b r j * v (ix3 b j d)

/-- The attention matrix as an array. -/
def attnArr (q k : Sqkv.Idx → EReal) : Sattn.Idx → EReal :=
  fun i => attnAt q k ⟨(i 0).val, (i 0).isLt⟩ ⟨(i 1).val, (i 1).isLt⟩ ⟨(i 2).val, (i 2).isLt⟩

/-- The context as an array. -/
def ctxArr (q k v : Sqkv.Idx → EReal) : Sqkv.Idx → EReal :=
  fun i => ctxAt q k v ⟨(i 0).val, (i 0).isLt⟩ ⟨(i 1).val, (i 1).isLt⟩ ⟨(i 2).val, (i 2).isLt⟩

theorem attnArr_ix3 (q k : Sqkv.Idx → EReal) (b : Fin 16) (r j : Fin 2048) :
    attnArr q k (ix3 b r j) = attnAt q k b r j := rfl

theorem ctxArr_ix3 (q k v : Sqkv.Idx → EReal) (b : Fin 16) (r : Fin 2048) (d : Fin 64) :
    ctxArr q k v (ix3 b r d) = ctxAt q k v b r d := rfl

end Cert.Attention

end
-- ==== Proof.ReferenceValue.lean ====
/-
  The reference program's two results, read one stage at a time, are the attention matrix and the context of
  `Cert.Attention`: the batched contraction of `q` with `k` over the feature axis, times `1/8`; the row maximum from −∞
  (taken once more against −∞, which changes nothing); the shifted exponentials, their row sum from `0`, the quotient;
  and the batched contraction of the quotient with `v` over the key axis.
-/
import proofs.«117009_j13529146983095_2_alg».proof.Proof.Gen.ReferenceIdeal.Read
import proofs.«117009_j13529146983095_2_alg».proof.Proof.Attention
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

/-- The scaled scores: the contraction over the feature axis, then the scale. -/
theorem scores_apply (q k : Sqkv.Idx → EReal) (b : Fin 16) (r j : Fin 2048) :
    val_main_v2 (F := Ideal) q k (ix3 b r j) = score q k b r j := by
  rw [val_main_v2_apply, val_main_v0_apply, val_main_v1_apply, val_main_cst_apply]
  have el : ∀ d : Fin 64, lidx_main_v0 (ix3 b r j) d = ix3 b r d := fun d => funext fun a => Fin.ext (by
    match a with | ⟨0, _⟩ => rfl | ⟨1, _⟩ => rfl | ⟨2, _⟩ => rfl)
  have er : ∀ d : Fin 64, ridx_main_v0 (ix3 b r j) d = ix3 b j d := fun d => funext fun a => Fin.ext (by
    match a with | ⟨0, _⟩ => rfl | ⟨1, _⟩ => rfl | ⟨2, _⟩ => rfl)
  show (∑ d : Fin 64, q (lidx_main_v0 (ix3 b r j) d) * k (ridx_main_v0 (ix3 b r j) d)) * Ideal.ofBits .f32 0x3E000000#32 = _
  unfold score
  exact congrArg (· * Ideal.ofBits .f32 0x3E000000#32) (Finset.sum_congr rfl fun d _ => by rw [el, er])

/-- The reduced index (b, r) with key row `j` put back on the last axis is (b, r, j). -/
theorem lift_key (h : S16x2048x2048.Reduces [2] S16x2048) (b : Fin 16) (r j : Fin 2048) :
    h.lift (ix2 b r) j = ix3 b r j := by
  funext c; apply Fin.ext
  fin_cases c <;> rfl

/-- The row maximum of the scaled scores. -/
theorem rowMax_apply (q k : Sqkv.Idx → EReal) (b : Fin 16) (r : Fin 2048) :
    val_main_v5 (F := Ideal) q k (ix2 b r) = rowMax (fun j => score q k b r j) := by
  have h : S16x2048x2048.Reduces [2] S16x2048 := by decide
  have h3 : val_main_v3 (F := Ideal) q k (ix2 b r) = rowMax (fun j => score q k b r j) := by
    unfold val_main_v3
    rw [Host.reduce_eq_fold_single FloatOps.maximumf _ _ reducesTo_S16x2048x2048_S16x2048_d2 h h_S_]
    unfold rowMax
    refine congrArg (fun f : Fin 2048 → EReal => (Finset.univ : Finset (Fin 2048)).fold max (Ideal.ofBits .f32 0xFF800000#32) f)
      (funext fun j => ?_)
    show val_main_v2 (F := Ideal) q k (h.lift (ix2 b r) j) = _
    rw [lift_key h b r j]
    exact scores_apply q k b r j
  rw [val_main_v5_apply, val_main_v4_apply, val_main_cst_1_apply, h3]
  exact max_negInf_rowMax _

/-- The shifted exponentials. -/
theorem rowExp_apply (q k : Sqkv.Idx → EReal) (b : Fin 16) (r j : Fin 2048) :
    val_main_v9 (F := Ideal) q k (ix3 b r j) = rowExp (fun j' => score q k b r j') j := by
  rw [val_main_v9_apply, val_main_v8_apply, val_main_v7_apply, val_main_v6_apply, scores_apply]
  have e : idx_main_v6 (idx_main_v7 (ix3 b r j)) = ix2 b r := funext fun a => Fin.ext (by
    match a with | ⟨0, _⟩ => rfl | ⟨1, _⟩ => rfl)
  rw [e, rowMax_apply]
  rfl

/-- The row sum of the shifted exponentials, from `0`. -/
theorem rowSum_apply (q k : Sqkv.Idx → EReal) (b : Fin 16) (r : Fin 2048) :
    val_main_v10 (F := Ideal) q k (ix2 b r) = ∑ j : Fin 2048, rowExp (fun j' => score q k b r j') j := by
  rw [val_main_v10_apply, val_main_cst_2_apply]
  show Ideal.ofBits .f32 0x00000000#32 + _ = _
  rw [Ideal.ofBits_zero_f32, zero_add]
  refine Finset.sum_congr rfl fun j _ => ?_
  have e : idx_main_v10 (ix2 b r) j = ix3 b r j := funext fun a => Fin.ext (by
    match a with | ⟨0, _⟩ => rfl | ⟨1, _⟩ => rfl | ⟨2, _⟩ => rfl)
  rw [e]
  exact rowExp_apply q k b r j

/-- The attention weights. -/
theorem attn_apply (q k : Sqkv.Idx → EReal) (b : Fin 16) (r j : Fin 2048) :
    val_main_v13 (F := Ideal) q k (ix3 b r j) = attnAt q k b r j := by
  rw [val_main_v13_apply, val_main_v12_apply, val_main_v11_apply, rowExp_apply]
  have e : idx_main_v11 (idx_main_v12 (ix3 b r j)) = ix2 b r := funext fun a => Fin.ext (by
    match a with | ⟨0, _⟩ => rfl | ⟨1, _⟩ => rfl)
  rw [e, rowSum_apply]
  rfl

/-- The reference's second result is the attention matrix. -/
theorem attn_eq (q k : Sqkv.Idx → EReal) : val_main_v13 (F := Ideal) q k = attnArr q k := by
  funext i
  obtain ⟨b, r, j, rfl⟩ : ∃ (b : Fin 16) (r j : Fin 2048), i = ix3 b r j := ⟨i 0, i 1, i 2, eq_ix3 i⟩
  rw [attn_apply, attnArr_ix3]

/-- The reference's first result is the context. -/
theorem ctx_eq (q k v : Sqkv.Idx → EReal) : val_main_v14 (F := Ideal) q k v = ctxArr q k v := by
  funext i
  obtain ⟨b, r, d, rfl⟩ : ∃ (b : Fin 16) (r : Fin 2048) (d : Fin 64), i = ix3 b r d := ⟨i 0, i 1, i 2, eq_ix3 i⟩
  rw [val_main_v14_apply, ctxArr_ix3]
  unfold ctxAt
  refine Finset.sum_congr rfl fun j _ => ?_
  have el : lidx_main_v14 (ix3 b r d) j = ix3 b r j := funext fun a => Fin.ext (by
    match a with | ⟨0, _⟩ => rfl | ⟨1, _⟩ => rfl | ⟨2, _⟩ => rfl)
  have er : ridx_main_v14 (ix3 b r d) j = ix3 b j d := funext fun a => Fin.ext (by
    match a with | ⟨0, _⟩ => rfl | ⟨1, _⟩ => rfl | ⟨2, _⟩ => rfl)
  rw [el, er, attn_apply]

end Cert.ReferenceIdeal.RefValue

end
-- ==== Proof.BodyValue.lean ====
/-
  What the kernel body computes from one query block `P0` [1, 512, 64], the batch's transposed keys `P1` [1, 64, 2048] and
  the batch's values `P2` [1, 2048, 64], read at an index of the block.

  Row `r` of the block's scores is `∑ d, (P0[0,r,d] · c) · P1[0,d,j]` — the scale `c = 1/8` is applied to the query
  before the contraction; the narrowing to bf16 is the identity on the extended reals, and the product into a zero
  accumulator is the plain sum. The row then goes through the stable softmax (`Cert.Attention.softmaxRow`): its
  maximum from −∞ and its sum from `0` are reductions over the key axis whose results are put back as a column and
  repeated along the row. The context block is the contraction of the weights with `P2` over the key axis.
-/
import proofs.«117009_j13529146983095_2_alg».proof.Proof.Gen.KernelIdeal.Skeleton
import proofs.«117009_j13529146983095_2_alg».proof.Proof.Attention
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx
open Cert.Attention

/-! ## Layout: a leading unit axis dropped or added, a column repeated along its rows -/

/-- A [1, A, B] block viewed [A, B], read at (a, b), is the block at (0, a, b). -/
theorem dropUnit_apply {α : Type} {A B : Nat} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 (0 : Fin 1) a b) :=
  (shapeCast_dropUnit_apply ![A, B] v h (ix2 a b)).trans (congrArg v (funext fun c => Fin.ext (by
    match c with | ⟨0, _⟩ => rfl | ⟨1, _⟩ => rfl | ⟨2, _⟩ => rfl)))

/-- An [A, B] value stored as a [1, A, B] block, read at (0, a, b), is the value at (a, b). -/
theorem addUnit_apply {α : Type} {A B : Nat} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) :=
  (shapeCast_addUnit_apply ![A, B] v h (ix3 (0 : Fin 1) a b)).trans (congrArg v (funext fun c => Fin.ext (by
    match c with | ⟨0, _⟩ => rfl | ⟨1, _⟩ => rfl)))

/-- One value per row, put back as a column [512, 1] and repeated along the 2048 columns: entry (r, j) is row `r`'s value. -/
theorem column_apply {α : Type} (x : (⟨1, ![512]⟩ : Shape).Idx → α)
    (hc : (⟨1, ![512]⟩ : Shape).ShapeCasts ⟨2, ![512, 1]⟩) (hb : (⟨2, ![512, 1]⟩ : Shape).Broadcasts ⟨2, ![512, 2048]⟩)
    (r : Fin 512) (j : Fin 2048) :
    broadcastTo ⟨2, ![512, 2048]⟩ (shapeCast ⟨2, ![512, 1]⟩ x hc) hb (ix2 r j) = x (ix1 r) :=
  (broadcastTo_apply _ hb (ix2 r j) (ix2 r (0 : Fin 1)) (fun a => by
      match a with
      | ⟨0, _⟩ => show r.val = if (512 : Nat) = 1 then 0 else r.val; rw [if_neg (by decide)]
      | ⟨1, _⟩ => show 0 = if (1 : Nat) = 1 then 0 else j.val; rw [if_pos rfl])).trans
    (shapeCast_apply x hc (ix2 r (0 : Fin 1)) (ix1 r) (by
      rw [Shape.rowMajor_val_one, Shape.rowMajor_val_two]; show r.val = r.val * 1 + 0; omega))

/-! ## The two reductions over the key axis -/

/-- The reduced index `r` with key column `j` put back is (r, j). -/
theorem lift_col (h : (⟨2, ![512, 2048]⟩ : Shape).Reduces [1] ⟨1, ![512]⟩) (r : Fin 512) (j : Fin 2048) :
    h.lift (ix1 r) j = ix2 r j := by
  funext c; apply Fin.ext
  fin_cases c <;> rfl

/-- A row's maximum from −∞. -/
theorem rowMax_apply (S : FVec Ideal ⟨2, ![512, 2048]⟩ .f32) (h : (⟨2, ![512, 2048]⟩ : Shape).Reduces [1] ⟨1, ![512]⟩)
    (hφ : FKind.Formats .f32) (hacc : (0xFF800000#32 : BitVec 32) = FKind.maximumf.neutral .f32 hφ) (r : Fin 512) :
    multiReduction .maximumf [1] ⟨1, ![512]⟩ S 0xFF800000#32 h hφ hacc (ix1 r) = rowMax (fun j : Fin 2048 => S (ix2 r j)) :=
  (Ideal.multiReduction_maximumf_single S 0xFF800000#32 h hφ hacc (ix1 r)).trans (by
    unfold rowMax
    refine congrArg (fun f : Fin 2048 → EReal => (Finset.univ : Finset (Fin 2048)).fold max (Ideal.ofBits .f32 0xFF800000#32) f)
      (funext fun j => ?_)
    show S (h.lift (ix1 r) j) = S (ix2 r j)
    rw [lift_col h r j])

/-- A row's sum from `0`. -/
theorem rowSum_apply (E : FVec Ideal ⟨2, ![512, 2048]⟩ .f32) (h : (⟨2, ![512, 2048]⟩ : Shape).Reduces [1] ⟨1, ![512]⟩)
    (hφ : FKind.Formats .f32) (hacc : (0x00000000#32 : BitVec 32) = FKind.add.neutral .f32 hφ) (r : Fin 512) :
    multiReduction .add [1] ⟨1, ![512]⟩ E 0x00000000#32 h hφ hacc (ix1 r) = ∑ j : Fin 2048, E (ix2 r j) :=
  (Ideal.multiReduction_add_single E 0x00000000#32 h hφ hacc (ix1 r)).trans
    (Finset.sum_congr rfl fun j _ => by rw [lift_col h r j])

/-! ## The body's operations, named -/

/-- The block's scores: the scaled query block against the transposed keys. -/
def scoresVec (P0 : Vec Ideal S1x512x64 .f32) (P1 : Vec Ideal S1x64x2048 .f32) : FVec Ideal S512x2048 .f32 :=
  matmul dot_S512x64_S64x2048_S512x2048_1_0_0_1_n_n none
    (truncf .bf16 (mulf (shapeCast S512x64 P0 shapeCasts_S1x512x64_S512x64) (broadcast S512x64 (Scalar.ofBits .f32 0x3E000000#32))) bitsLt_bf16_f32)
    (truncf .bf16 (shapeCast S64x2048 P1 shapeCasts_S1x64x2048_S64x2048) bitsLt_bf16_f32)
    (constant S512x2048 .f32 0x00000000#32)

/-- The exponentials of a score block, each row shifted by its maximum. -/
def expShift (S : FVec Ideal S512x2048 .f32) : FVec Ideal S512x2048 .f32 :=
  exp (subf S (broadcastTo S512x2048 (shapeCast S512x1 (multiReduction .maximumf [1] S512 S 0xFF800000#32 reduces_S512x2048_S512 (.inl rfl) rfl)
    shapeCasts_S512_S512x1) broadcasts_S512x1_S512x2048))

/-- The row softmax of a score block. -/
def softmaxVec (S : FVec Ideal S512x2048 .f32) : FVec Ideal S512x2048 .f32 :=
  divf (expShift S) (broadcastTo S512x2048 (shapeCast S512x1 (multiReduction .add [1] S512 (expShift S) 0x00000000#32 reduces_S512x2048_S512 (.inl rfl) rfl)
    shapeCasts_S512_S512x1) broadcasts_S512x1_S512x2048)

/-- The weights payload is the row softmax of the scores. -/
theorem pay1_eq (P0 : Vec Ideal S1x512x64 .f32) (P1 : Vec Ideal S1x64x2048 .f32) :
    k0_pay1 (F := Ideal) P0 P1 = softmaxVec (scoresVec P0 P1) := rfl

/-! ## Read at an index -/

theorem qk_lhs0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The first product into a zero accumulator, at (r, j): the sum over the 64 features. -/
theorem matmul_qk_apply (Lq : FVec Ideal S512x64 .bf16) (Rk : FVec Ideal S64x2048 .bf16) (r : Fin 512) (j : Fin 2048) :
    matmul dot_S512x64_S64x2048_S512x2048_1_0_0_1_n_n none Lq Rk (constant S512x2048 .f32 0x00000000#32) (ix2 r j)
      = ∑ d : Fin 64, Lq (ix2 r d) * Rk (ix2 d j) := by
  refine (Ideal.matmul_constant_zero_apply dot_S512x64_S64x2048_S512x2048_1_0_0_1_n_n none Lq Rk (ix2 r j)).trans ?_
  rw [← Equiv.sum_comp (contrEquiv1 dot_S512x64_S64x2048_S512x2048_1_0_0_1_n_n 64 rfl rfl).symm]
  refine Finset.sum_congr rfl fun d _ => ?_
  have hk := contrEquiv1_symm_val dot_S512x64_S64x2048_S512x2048_1_0_0_1_n_n 64 rfl rfl d
  have el : dot_S512x64_S64x2048_S512x2048_1_0_0_1_n_n.lhsIdx (ix2 r j) ((contrEquiv1 dot_S512x64_S64x2048_S512x2048_1_0_0_1_n_n 64 rfl rfl).symm d) = ix2 r d := funext fun a => Fin.ext (by
    match a with
    | ⟨0, _⟩ => exact qk_lhs0 _ _
    | ⟨1, _⟩ => exact (qk_lhs1 _ _).trans hk)
  have er : dot_S512x64_S64x2048_S512x2048_1_0_0_1_n_n.rhsIdx (ix2 r j) ((contrEquiv1 dot_S512x64_S64x2048_S512x2048_1_0_0_1_n_n 64 rfl rfl).symm d) = ix2 d j := funext fun a => Fin.ext (by
    match a with
    | ⟨0, _⟩ => exact (qk_rhs0 _ _).trans hk
    | ⟨1, _⟩ => exact qk_rhs1 _ _)
  rw [el, er]

/-- The block's scores at (r, j). -/
theorem scoresVec_apply (P0 : Vec Ideal S1x512x64 .f32) (P1 : Vec Ideal S1x64x2048 .f32) (r : Fin 512) (j : Fin 2048) :
    scoresVec P0 P1 (ix2 r j)
      = ∑ d : Fin 64, (P0 (ix3 (0 : Fin 1) r d) * Ideal.ofBits .f32 0x3E000000#32) * P1 (ix3 (0 : Fin 1) d j) := by
  unfold scoresVec
  refine (matmul_qk_apply _ _ r j).trans (Finset.sum_congr rfl fun d _ => ?_)
  show (shapeCast S512x64 P0 shapeCasts_S1x512x64_S512x64 (ix2 r d) * Ideal.ofBits .f32 0x3E000000#32)
      * shapeCast S64x2048 P1 shapeCasts_S1x64x2048_S64x2048 (ix2 d j) = _
  rw [dropUnit_apply P0 shapeCasts_S1x512x64_S512x64 r d, dropUnit_apply P1 shapeCasts_S1x64x2048_S64x2048 d j]

/-- The shifted exponentials at (r, j). -/
theorem expShift_apply (S : FVec Ideal S512x2048 .f32) (r : Fin 512) (j : Fin 2048) :
    expShift S (ix2 r j) = rowExp (fun j' : Fin 2048 => S (ix2 r j')) j := by
  unfold expShift rowExp
  show Ideal.exp (S (ix2 r j) - broadcastTo S512x2048 (shapeCast S512x1 (multiReduction .maximumf [1] S512 S 0xFF800000#32 reduces_S512x2048_S512 (.inl rfl) rfl)
    shapeCasts_S512_S512x1) broadcasts_S512x1_S512x2048 (ix2 r j)) = _
  exact congrArg (fun x => Ideal.exp (S (ix2 r j) - x))
    ((column_apply _ shapeCasts_S512_S512x1 broadcasts_S512x1_S512x2048 r j).trans (rowMax_apply S reduces_S512x2048_S512 _ _ r))

/-- The row softmax at (r, j). -/
theorem softmaxVec_apply (S : FVec Ideal S512x2048 .f32) (r : Fin 512) (j : Fin 2048) :
    softmaxVec S (ix2 r j) = softmaxRow (fun j' : Fin 2048 => S (ix2 r j')) j := by
  unfold softmaxVec softmaxRow
  show Ideal.div (expShift S (ix2 r j)) (broadcastTo S512x2048 (shapeCast S512x1 (multiReduction .add [1] S512 (expShift S) 0x00000000#32 reduces_S512x2048_S512 (.inl rfl) rfl)
    shapeCasts_S512_S512x1) broadcasts_S512x1_S512x2048 (ix2 r j)) = _
  refine congrArg₂ Ideal.div (expShift_apply S r j) ?_
  refine ((column_apply _ shapeCasts_S512_S512x1 broadcasts_S512x1_S512x2048 r j).trans
    (rowSum_apply (expShift S) reduces_S512x2048_S512 _ _ r)).trans ?_
  exact Finset.sum_congr rfl fun j' _ => expShift_apply S r j'

/-- The scores of block row `r`, as a row. -/
def blockScore (P0 : Vec Ideal S1x512x64 .f32) (P1 : Vec Ideal S1x64x2048 .f32) (r : Fin 512) (j : Fin 2048) : EReal :=
  ∑ d : Fin 64, (P0 (ix3 (0 : Fin 1) r d) * Ideal.ofBits .f32 0x3E000000#32) * P1 (ix3 (0 : Fin 1) d j)

/-- The weights payload at (r, j): the softmax of block row `r`'s scores. -/
theorem pay1_apply (P0 : Vec Ideal S1x512x64 .f32) (P1 : Vec Ideal S1x64x2048 .f32) (r : Fin 512) (j : Fin 2048) :
    k0_pay1 (F := Ideal) P0 P1 (ix2 r j) = softmaxRow (blockScore P0 P1 r) j := by
  rw [pay1_eq, softmaxVec_apply]
  exact congrArg (fun s => softmaxRow s j) (funext fun j' => scoresVec_apply P0 P1 r j')

/-- The stored weights block at (0, r, j). -/
theorem pay2_apply (P0 : Vec Ideal S1x512x64 .f32) (P1 : Vec Ideal S1x64x2048 .f32) (r : Fin 512) (j : Fin 2048) :
    k0_pay2 (F := Ideal) P0 P1 (ix3 (0 : Fin 1) r j) = softmaxRow (blockScore P0 P1 r) j := by
  unfold k0_pay2
  exact (addUnit_apply (k0_pay1 (F := Ideal) P0 P1) shapeCasts_S512x2048_S1x512x2048 r j).trans (pay1_apply P0 P1 r j)

theorem av_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem av_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem av_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The second product into a zero accumulator, at (r, d): the sum over the 2048 keys. -/
theorem matmul_av_apply (La : FVec Ideal S512x2048 .bf16) (Rv : FVec Ideal S2048x64 .bf16) (r : Fin 512) (d : Fin 64) :
    matmul dot_S512x2048_S2048x64_S512x64_1_0_0_1_n_n none La Rv (constant S512x64 .f32 0x00000000#32) (ix2 r d)
      = ∑ j : Fin 2048, La (ix2 r j) * Rv (ix2 j d) := by
  refine (Ideal.matmul_constant_zero_apply dot_S512x2048_S2048x64_S512x64_1_0_0_1_n_n none La Rv (ix2 r d)).trans ?_
  rw [← Equiv.sum_comp (contrEquiv1 dot_S512x2048_S2048x64_S512x64_1_0_0_1_n_n 2048 rfl rfl).symm]
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 r d) ((contrEquiv1 dot_S512x2048_S2048x64_S512x64_1_0_0_1_n_n 2048 rfl rfl).symm j) = ix2 r j := funext fun a => Fin.ext (by
    match a with
    | ⟨0, _⟩ => exact av_lhs0 _ _
    | ⟨1, _⟩ => exact (av_lhs1 _ _).trans hk)
  have er : dot_S512x2048_S2048x64_S512x64_1_0_0_1_n_n.rhsIdx (ix2 r d) ((contrEquiv1 dot_S512x2048_S2048x64_S512x64_1_0_0_1_n_n 2048 rfl rfl).symm j) = ix2 j d := funext fun a => Fin.ext (by
    match a with
    | ⟨0, _⟩ => exact (av_rhs0 _ _).trans hk
    | ⟨1, _⟩ => exact av_rhs1 _ _)
  rw [el, er]

/-- The stored context block at (0, r, d): the weights of block row `r` against the values. -/
theorem pay3_apply (P0 : Vec Ideal S1x512x64 .f32) (P1 : Vec Ideal S1x64x2048 .f32) (P2 : Vec Ideal S1x2048x64 .f32)
    (r : Fin 512) (d : Fin 64) :
    k0_pay3 (F := Ideal) P0 P1 P2 (ix3 (0 : Fin 1) r d)
      = ∑ j : Fin 2048, softmaxRow (blockScore P0 P1 r) j * P2 (ix3 (0 : Fin 1) j d) := by
  unfold k0_pay3
  refine (addUnit_apply _ shapeCasts_S512x64_S1x512x64 r d).trans ?_
  refine (matmul_av_apply _ _ r d).trans (Finset.sum_congr rfl fun j _ => ?_)
  show k0_pay1 (F := Ideal) P0 P1 (ix2 r j) * shapeCast S2048x64 P2 shapeCasts_S1x2048x64_S2048x64 (ix2 j d) = _
  rw [pay1_apply, dropUnit_apply P2 shapeCasts_S1x2048x64_S2048x64 j d]

end Cert.KernelIdeal.BodyValue

end
-- ==== Proof.KernelValue.lean ====
/-
  The kernel's two result arrays after the run are the attention matrix and the context of `Cert.Attention`.

  Grid point `t` is batch `t / 4` and query tile `t % 4`: it reads rows `512·(t % 4) …` of `q` in that batch, all of the
  batch's keys — through the transposed copy the host makes before the launch, whose entry (b, d, j) is `k[b, j, d]` — and
  all of the batch's values, and writes the same 512 rows of both results. Inside a tile the body scales the query
  before the contraction; moving the scale out of the sum (`Cert.Attention.sum_scaled_mul`) gives the reference's scores,
  and everything after the scores is the same function of them. The 64 tiles cover both result arrays.
-/
import proofs.«117009_j13529146983095_2_alg».proof.Proof.Gen.KernelIdeal.Value
import proofs.«117009_j13529146983095_2_alg».proof.Proof.BodyValue
import proofs.«117009_j13529146983095_2_alg».proof.Proof.Attention
import Idealize.ShloMosaic.Lib.Pipeline.Value
import Idealize.ShloMosaic.Lib.StableHlo.Run

noncomputable section

open scoped BigOperators

namespace Cert.KernelIdeal.ArrValue

open Cert.KernelIdeal Cert.KernelIdeal.Gen Cert.KernelIdeal.BodyValue Idealize.ShloMosaic Idealize.ShloMosaic.TcCoe Idealize.SL.Sem
open Idealize.ShloMosaic.ValueIdx Idealize.ShloMosaic.StableHlo
open Idealize.ShloMosaic.Pipeline (Dat)
open Cert.Attention

/-! ## One tile, over blocks as variables -/

/-- An index of the attention matrix with coordinates (b, r, j) holds `attnAt b r j`. -/
theorem attnArr_of_coords (Q K : Sqkv.Idx → EReal) (i : Sattn.Idx) (b : Fin 16) (r j : Fin 2048)
    (h0 : (i 0).val = b.val) (h1 : (i 1).val = r.val) (h2 : (i 2).val = j.val) : attnArr Q K i = attnAt Q K b r j := by
  have e : i = ix3 b r j := funext fun a => Fin.ext (by
    match a with | ⟨0, _⟩ => exact h0 | ⟨1, _⟩ => exact h1 | ⟨2, _⟩ => exact h2)
  rw [e, attnArr_ix3]

/-- An index of the context with coordinates (b, r, d) holds `ctxAt b r d`. -/
theorem ctxArr_of_coords (Q K V : Sqkv.Idx → EReal) (i : Sqkv.Idx) (b : Fin 16) (r : Fin 2048) (d : Fin 64)
    (h0 : (i 0).val = b.val) (h1 : (i 1).val = r.val) (h2 : (i 2).val = d.val) : ctxArr Q K V i = ctxAt Q K V b r d := by
  have e : i = ix3 b r d := funext fun a => Fin.ext (by
    match a with | ⟨0, _⟩ => exact h0 | ⟨1, _⟩ => exact h1 | ⟨2, _⟩ => exact h2)
  rw [e, ctxArr_ix3]

/-- When the query block holds rows `r0 …` of batch `b` of `Q` and the key block the transposed batch `b` of `K`, block
    row `r`'s scores are the scaled scores of row `r0 + r`: the scale leaves the contraction. -/
theorem blockScore_eq (Q K : Sqkv.Idx → EReal) (P0 : Vec Ideal S1x512x64 .f32) (P1 : Vec Ideal S1x64x2048 .f32)
    (b : Fin 16) (r0 : Nat) (hr0 : r0 + 512 ≤ 2048)
    (h0 : ∀ (r : Fin 512) (d : Fin 64), P0 (ix3 (0 : Fin 1) r d) = Q (ix3 b (⟨r0 + r.val, by omega⟩ : Fin 2048) d))
    (h1 : ∀ (d : Fin 64) (j : Fin 2048), P1 (ix3 (0 : Fin 1) d j) = K (ix3 b j d)) (r : Fin 512) :
    blockScore P0 P1 r = fun j => score Q K b (⟨r0 + r.val, by omega⟩ : Fin 2048) j := by
  funext j
  unfold blockScore score
  rw [← sum_scaled_mul]
  exact Finset.sum_congr rfl fun d _ => by rw [h0, h1]

/-- The stored weights block is the tile of the attention matrix. -/
theorem attn_tile (Q K : Sqkv.Idx → EReal) (P0 : Vec Ideal S1x512x64 .f32) (P1 : Vec Ideal S1x64x2048 .f32)
    (b : Fin 16) (r0 : Nat) (hr0 : r0 + 512 ≤ 2048)
    (h0 : ∀ (r : Fin 512) (d : Fin 64), P0 (ix3 (0 : Fin 1) r d) = Q (ix3 b (⟨r0 + r.val, by omega⟩ : Fin 2048) d))
    (h1 : ∀ (d : Fin 64) (j : Fin 2048), P1 (ix3 (0 : Fin 1) d j) = K (ix3 b j d)) (r : Fin 512) (j : Fin 2048) :
    k0_pay2 (F := Ideal) P0 P1 (ix3 (0 : Fin 1) r j) = attnAt Q K b (⟨r0 + r.val, by omega⟩ : Fin 2048) j := by
  rw [pay2_apply, blockScore_eq Q K P0 P1 b r0 hr0 h0 h1 r]
  rfl

/-- The stored context block is the tile of the context. -/
theorem ctx_tile (Q K V : Sqkv.Idx → EReal) (P0 : Vec Ideal S1x512x64 .f32) (P1 : Vec Ideal S1x64x2048 .f32)
    (P2 : Vec Ideal S1x2048x64 .f32) (b : Fin 16) (r0 : Nat) (hr0 : r0 + 512 ≤ 2048)
    (h0 : ∀ (r : Fin 512) (d : Fin 64), P0 (ix3 (0 : Fin 1) r d) = Q (ix3 b (⟨r0 + r.val, by omega⟩ : Fin 2048) d))
    (h1 : ∀ (d : Fin 64) (j : Fin 2048), P1 (ix3 (0 : Fin 1) d j) = K (ix3 b j d))
    (h2 : ∀ (j : Fin 2048) (d : Fin 64), P2 (ix3 (0 : Fin 1) j d) = V (ix3 b j d)) (r : Fin 512) (d : Fin 64) :
    k0_pay3 (F := Ideal) P0 P1 P2 (ix3 (0 : Fin 1) r d) = ctxAt Q K V b (⟨r0 + r.val, by omega⟩ : Fin 2048) d := by
  rw [pay3_apply, blockScore_eq Q K P0 P1 b r0 hr0 h0 h1 r]
  unfold ctxAt attnAt
  exact Finset.sum_congr rfl fun j _ => by rw [h2]

/-! ## The grid, the host's transposed keys, the blocks -/

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 64 grid points: batch `t / 4`, query tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

theorem t_lt (t : Fin cfg0.N) : t.val < 64 := lt_of_lt_of_eq t.isLt N_0

/-- The array the second window stages is the host's transpose of the keys. -/
theorem V_kt (c : Dev nD) :
    (V m c main_v0 : S16x64x2048.Idx → EReal)
      = transpose S16x64x2048 [0, 2, 1] (m ((c : Thread nD τ).loc main_arg1)) transposes_S16x2048x64_S16x64x2048_0_2_1 := by
  dsimp only [Gen.V, Gen.hostOps0]
  after_results

/-- The transposed keys at (b, d, j) are the keys at (b, j, d). -/
theorem kt_apply (X : S16x2048x64.Idx → EReal) (i : S16x64x2048.Idx) (b : Fin 16) (j : Fin 2048) (d : Fin 64)
    (h0 : (i 0).val = b.val) (h1 : (i 1).val = d.val) (h2 : (i 2).val = j.val) :
    transpose S16x64x2048 [0, 2, 1] X transposes_S16x2048x64_S16x64x2048_0_2_1 i = X (ix3 b j d) :=
  transpose_apply [0, 2, 1] X transposes_S16x2048x64_S16x64x2048_0_2_1 i (ix3 b j d) (fun a => by
    match a with
    | ⟨0, _⟩ => exact h0.symm
    | ⟨1, _⟩ => exact h1.symm
    | ⟨2, _⟩ => exact h2.symm)

/-- The query block at point `t`: rows `512·(t % 4) …` of batch `t / 4`. -/
theorem q_block (c : Dev nD) (t : Fin cfg0.N) (r : Fin 512) (d : Fin 64) :
    (iblk m c 0 t : Vec Ideal S1x512x64 .f32) (ix3 (0 : Fin 1) r d)
      = (m ((c : Thread nD τ).loc main_arg0) : S16x2048x64.Idx → EReal)
          (ix3 (⟨t.val / 4, by have := t_lt t; omega⟩ : Fin 16) (⟨t.val % 4 * 512 + r.val, by have := r.isLt; omega⟩ : Fin 2048) d) := by
  obtain ⟨e0, e1, e2, -⟩ := idx_facts t
  show V m c main_arg0 (((cfg0.win 0).blk t).view.emb (ix3 (0 : Fin 1) r d)) = _
  rw [V_main_arg0 m c]
  refine congrArg _ (funext fun a => Fin.ext ?_)
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 64 + 1 * d.val = d.val; omega

/-- The key block at point `t`: the transposed keys of batch `t / 4`. -/
theorem k_block (c : Dev nD) (t : Fin cfg0.N) (d : Fin 64) (j : Fin 2048) :
    (iblk m c 1 t : Vec Ideal S1x64x2048 .f32) (ix3 (0 : Fin 1) d j)
      = (m ((c : Thread nD τ).loc main_arg1) : S16x2048x64.Idx → EReal)
          (ix3 (⟨t.val / 4, by have := t_lt t; omega⟩ : Fin 16) j d) := by
  obtain ⟨-, -, -, e0, e1, e2, -⟩ := idx_facts t
  show V m c main_v0 (((cfg0.win 1).blk t).view.emb (ix3 (0 : Fin 1) d j)) = _
  rw [V_kt m c]
  refine kt_apply _ _ _ j d ?_ ?_ ?_
  · show win0_1.index t (0 : Fin 3) * 1 + 1 * 0 = t.val / 4; omega
  · show win0_1.index t (1 : Fin 3) * 64 + 1 * d.val = d.val; omega
  · show win0_1.index t (2 : Fin 3) * 2048 + 1 * j.val = j.val; omega

/-- The value block at point `t`: the values of batch `t / 4`. -/
theorem v_block (c : Dev nD) (t : Fin cfg0.N) (j : Fin 2048) (d : Fin 64) :
    (iblk m c 2 t : Vec Ideal S1x2048x64 .f32) (ix3 (0 : Fin 1) j d)
      = (m ((c : Thread nD τ).loc main_arg2) : S16x2048x64.Idx → EReal)
          (ix3 (⟨t.val / 4, by have := t_lt t; omega⟩ : Fin 16) j d) := by
  obtain ⟨-, -, -, -, -, -, e0, e1, e2, -⟩ := idx_facts t
  show V m c main_arg2 (((cfg0.win 2).blk t).view.emb (ix3 (0 : Fin 1) j d)) = _
  rw [V_main_arg2 m c]
  refine congrArg _ (funext fun a => Fin.ext ?_)
  match a with
  | ⟨0, _⟩ => show win0_2.index t (0 : Fin 3) * 1 + 1 * 0 = t.val / 4; omega
  | ⟨1, _⟩ => show win0_2.index t (1 : Fin 3) * 2048 + 1 * j.val = j.val; omega
  | ⟨2, _⟩ => show win0_2.index t (2 : Fin 3) * 64 + 1 * d.val = d.val; omega

/-! ## The attention matrix -/

/-- What the attention array ends holding. -/
abbrev attnOf (c : Dev nD) : Buf (Elt Ideal) ((c : Thread nD τ).loc main_v1_1) :=
  attnArr (m ((c : Thread nD τ).loc main_arg0)) (m ((c : Thread nD τ).loc main_arg1))

/-- What the context array ends holding. -/
abbrev ctxOf (c : Dev nD) : Buf (Elt Ideal) ((c : Thread nD τ).loc main_v1_0) :=
  ctxArr (m ((c : Thread nD τ).loc main_arg0)) (m ((c : Thread nD τ).loc main_arg1)) (m ((c : Thread nD τ).loc main_arg2))

/-- Point `t` writes back its tile of the attention matrix. -/
theorem flushed_attn (c : Dev nD) (t : Fin cfg0.N) :
    (dats m 0 c).flushed 4 t = ((cfg0.win 4).blk t).view.read (Elt Ideal) (attnOf m c) := by
  rw [Value.flushed4]
  unfold out0_4
  rw [View.canon_unit_zero hz3]
  simp only [View.ld_unit_zero (S := S1x512x64) hz3, View.ld_unit_zero (S := S1x64x2048) hz3]
  obtain ⟨-, -, -, -, -, -, -, -, -, -, -, -, e0, e1, e2⟩ := idx_facts t
  have ht := t_lt t
  funext y
  obtain ⟨y0, r, j, rfl⟩ : ∃ (y0 : Fin 1) (r : Fin 512) (j : Fin 2048), y = ix3 y0 r j := ⟨y 0, y 1, y 2, eq_ix3 y⟩
  obtain rfl : y0 = 0 := Subsingleton.elim _ _
  show k0_pay2 (F := Ideal) (iblk m c 0 t) (iblk m c 1 t) (ix3 (0 : Fin 1) r j)
    = attnArr (m ((c : Thread nD τ).loc main_arg0)) (m ((c : Thread nD τ).loc main_arg1)) (((cfg0.win 4).blk t).view.emb (ix3 (0 : Fin 1) r j))
  refine (attn_tile (m ((c : Thread nD τ).loc main_arg0)) (m ((c : Thread nD τ).loc main_arg1)) (iblk m c 0 t) (iblk m c 1 t)
    (⟨t.val / 4, by omega⟩ : Fin 16) (t.val % 4 * 512) (by omega) (fun r d => q_block m c t r d) (fun d j => k_block m c t d j) r j).trans ?_
  refine (attnArr_of_coords _ _ _ _ _ _ ?_ ?_ ?_).symm
  · show win0_4.index t (0 : Fin 3) * 1 + 1 * 0 = t.val / 4; omega
  · show win0_4.index t (1 : Fin 3) * 512 + 1 * r.val = t.val % 4 * 512 + r.val; omega
  · show win0_4.index t (2 : Fin 3) * 2048 + 1 * j.val = j.val; omega

/-- An index of the attention array is in point `t`'s block iff each coordinate is in the block's range on its axis. -/
theorem mem_blk_attn (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v1_1).slice (win0_4.rect t)).set ↔ _
  rw [View.set_slice_whole, Rect.mem_set_unit]
  exact Iff.rfl

/-- Every index of the attention array is in the tile of point `4·b + r / 512`. -/
theorem cover_attn (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  have hN : cfg0.N = 64 := N_0
  let t : Fin cfg0.N := ⟨(i 0).val * 4 + (i 1).val / 512, by rw [hN]; omega⟩
  have tv : t.val = (i 0).val * 4 + (i 1).val / 512 := rfl
  obtain ⟨-, -, -, -, -, -, -, -, -, -, -, -, e0, e1, e2⟩ := idx_facts t
  refine ⟨t, flush0_4 t, ?_⟩
  rw [mem_blk_attn]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The attention array after the run. -/
theorem final_attn (c : Dev nD) : (dats m 0 c).arrAt 4 cfg0.N = attnOf m c :=
  (dats m 0 c).arrAt_eq_of_cover 4 (attnOf m c) (fun t _ => flushed_attn m c t) cover_attn

/-! ## The context -/

/-- Point `t` writes back its tile of the context. -/
theorem flushed_ctx (c : Dev nD) (t : Fin cfg0.N) :
    (dats m 0 c).flushed 3 t = ((cfg0.win 3).blk t).view.read (Elt Ideal) (ctxOf m c) := by
  rw [Value.flushed3]
  unfold out0_3
  rw [View.canon_unit_zero hz3]
  simp only [View.ld_unit_zero (S := S1x512x64) hz3, View.ld_unit_zero (S := S1x64x2048) hz3, View.ld_unit_zero (S := S1x2048x64) hz3]
  obtain ⟨-, -, -, -, -, -, -, -, -, e0, e1, e2, -⟩ := idx_facts t
  have ht := t_lt t
  funext y
  obtain ⟨y0, r, d, rfl⟩ : ∃ (y0 : Fin 1) (r : Fin 512) (d : Fin 64), y = ix3 y0 r d := ⟨y 0, y 1, y 2, eq_ix3 y⟩
  obtain rfl : y0 = 0 := Subsingleton.elim _ _
  show k0_pay3 (F := Ideal) (iblk m c 0 t) (iblk m c 1 t) (iblk m c 2 t) (ix3 (0 : Fin 1) r d)
    = ctxArr (m ((c : Thread nD τ).loc main_arg0)) (m ((c : Thread nD τ).loc main_arg1)) (m ((c : Thread nD τ).loc main_arg2))
        (((cfg0.win 3).blk t).view.emb (ix3 (0 : Fin 1) r d))
  refine (ctx_tile (m ((c : Thread nD τ).loc main_arg0)) (m ((c : Thread nD τ).loc main_arg1)) (m ((c : Thread nD τ).loc main_arg2))
    (iblk m c 0 t) (iblk m c 1 t) (iblk m c 2 t)
    (⟨t.val / 4, by omega⟩ : Fin 16) (t.val % 4 * 512) (by omega) (fun r d => q_block m c t r d) (fun d j => k_block m c t d j)
    (fun j d => v_block m c t j d) r d).trans ?_
  refine (ctxArr_of_coords _ _ _ _ _ _ _ ?_ ?_ ?_).symm
  · show win0_3.index t (0 : Fin 3) * 1 + 1 * 0 = t.val / 4; omega
  · show win0_3.index t (1 : Fin 3) * 512 + 1 * r.val = t.val % 4 * 512 + r.val; omega
  · show win0_3.index t (2 : Fin 3) * 64 + 1 * d.val = d.val; omega

/-- An index of the context array is in point `t`'s block iff each coordinate is in the block's range on its axis. -/
theorem mem_blk_ctx (t : Fin cfg0.N) (i : S16x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v1_0).slice (win0_3.rect t)).set ↔ _
  rw [View.set_slice_whole, Rect.mem_set_unit]
  exact Iff.rfl

/-- Every index of the context array is in the tile of point `4·b + r / 512`. -/
theorem cover_ctx (i : S16x2048x64.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hN : cfg0.N = 64 := N_0
  let t : Fin cfg0.N := ⟨(i 0).val * 4 + (i 1).val / 512, by rw [hN]; omega⟩
  have tv : t.val = (i 0).val * 4 + (i 1).val / 512 := rfl
  obtain ⟨-, -, -, -, -, -, -, -, -, e0, e1, e2, -⟩ := idx_facts t
  refine ⟨t, flush0_3 t, ?_⟩
  rw [mem_blk_ctx]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The context array after the run. -/
theorem final_ctx (c : Dev nD) : (dats m 0 c).arrAt 3 cfg0.N = ctxOf m c :=
  (dats m 0 c).arrAt_eq_of_cover 3 (ctxOf m c) (fun t _ => flushed_ctx m c t) cover_ctx

/-! ## The run, read -/

/-- Every weakly fair execution of the kernel's program ends with the context and the attention matrix of its
    arguments in the two result arrays, the arguments unchanged. -/
theorem run : θ_run defs (onTc (τ := τ) (main (F := Ideal))) ⟨m, fun _ => 0, ρ⟩ fun r => ∀ c : Dev nD,
      r.2.mem ((c : Thread nD τ).loc main_v1_0) = ctxOf m c
      ∧ r.2.mem ((c : Thread nD τ).loc main_v1_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_ctx m c), (h c).2.1.trans (final_attn m c), (h c).2.2⟩)
    (Value.run_blocks m ρ)

end Cert.KernelIdeal.ArrValue

end
-- ==== Proof.lean ====
/-
  Dense scaled dot-product attention, B = 16, Lq = Lk = 2048, D = 64: a tiled kernel against the plain formulation, equal
  over the extended reals.

  The kernel runs on a 16 × 4 grid, one batch and one tile of 512 query rows per point. A point scales its query tile by
  `1/8`, contracts it with the batch's keys (which the host transposed beforehand), takes the row softmax of the
  512 × 2048 scores — maximum from −∞, exponentials of the differences, their sum, the quotient — stores the weights, and
  contracts them with the batch's values. The reference contracts `q` with `k` first and scales the scores afterwards,
  then takes the same softmax over the key axis and the same contraction with `v`.

  The two differ only in where the scale sits. `1/8` is a nonnegative finite number, and the extended reals distribute
  over such a factor at every argument, the infinities included, so `∑ d, (q · 1/8) · k = (∑ d, q · k) · 1/8` with no
  assumption on the entries: the finiteness precondition is never opened. Everything downstream is one function of the
  scores (`Cert.Attention`); narrowing to bf16 is the identity here, a product into a zero accumulator is the sum, and
  the reference's extra maximum against −∞ changes nothing.

  The kernel's idealization rewrote no operation, so there is nothing to preserve; the three frames are the programs' runs
  with the results dropped.
-/
import proofs.«117009_j13529146983095_2_alg».proof.Defs
import proofs.«117009_j13529146983095_2_alg».proof.Proof.Gen.Kernel
import proofs.«117009_j13529146983095_2_alg».proof.Proof.Gen.Kernel.Frame
import proofs.«117009_j13529146983095_2_alg».proof.Proof.Gen.KernelIdeal
import proofs.«117009_j13529146983095_2_alg».proof.Proof.Gen.KernelIdeal.Frame
import proofs.«117009_j13529146983095_2_alg».proof.Proof.Gen.KernelIdeal.Value
import proofs.«117009_j13529146983095_2_alg».proof.Proof.Gen.ReferenceIdeal
import proofs.«117009_j13529146983095_2_alg».proof.Proof.Gen.ReferenceIdeal.Run
import proofs.«117009_j13529146983095_2_alg».proof.Proof.Gen.ReferenceIdeal.Read
import proofs.«117009_j13529146983095_2_alg».proof.Proof.Gen.Pre_finite_inputs
import proofs.«117009_j13529146983095_2_alg».proof.Proof.ReferenceValue
import proofs.«117009_j13529146983095_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- From arguments that agree, the kernel's context and attention matrix are the reference's: both are
    `Cert.Attention.ctxArr` and `Cert.Attention.attnArr` of the arguments. -/
theorem algebraic : Cert.algebraic_KernelIdeal_ReferenceIdeal := by
  intro m ρ m' ρ' _ hagree
  refine ⟨fun c => Cert.KernelIdeal.ArrValue.ctxOf m c, fun c => Cert.KernelIdeal.ArrValue.attnOf m c,
    Cert.KernelIdeal.ArrValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v14_eq _ _ _).trans ((Cert.ReferenceIdeal.RefValue.ctx_eq _ _ _).trans ?_)
    rw [(hagree c).1, (hagree c).2.1, (hagree c).2.2]
  · refine (Cert.ReferenceIdeal.Read.val_main_v13_eq _ _).trans ((Cert.ReferenceIdeal.RefValue.attn_eq _ _).trans ?_)
    rw [(hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
